-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S4096x1024 .f32) (main_arg3 : FVec F S4096x2048 .f32) (main_arg4 : FVec F S4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_v13 main_v16
-- ==== Kernel.lean ====
abbrev S4096x1024 : Shape := ⟨2, ![4096, 1024]⟩
abbrev S4096x2048 : Shape := ⟨2, ![4096, 2048]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S4096, .f32⟩
  | .hbm, ⟨5, _⟩ => ⟨S4096x2048, .bf16⟩
  | .hbm, ⟨6, _⟩ => ⟨S1x4096, .f32⟩
  | .hbm, ⟨7, _⟩ => ⟨S4096x1024, .f32⟩
  | .hbm, ⟨8, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x2048, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S4096x2048_S4096x1024_0_0 : ∀ a, (![0, 0] : Fin 2 → Nat) a + S4096x1024.size a ≤ S4096x2048.size a
  h_S4096x1024 : 0 < S4096x1024.numel
  shapeCasts_S4096x1024_S4096x1024 : S4096x1024.ShapeCasts S4096x1024
  inb_S4096x2048_S4096x1024_0_1024 : ∀ a, (![0, 1024] : Fin 2 → Nat) a + S4096x1024.size a ≤ S4096x2048.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x2048.size a ≤ S4096x2048.size a
  hwx0_3 : ∀ i : grid0.Coords, EltTy.bits .bf16 = 32 ∨ (Rect.block (s := S4096x2048) S4096x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S4096 : Shape := ⟨1, ![4096]⟩
abbrev S2048x4096 : Shape := ⟨2, ![2048, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S4096, .f32⟩
  | .hbm, ⟨5, _⟩ => ⟨S4096x2048, .f32⟩
  | .hbm, ⟨6, _⟩ => ⟨S2048x4096, .f32⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  transposes_S4096x2048_S2048x4096_1_0 : S4096x2048.Transposes [1, 0] S2048x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  bcast_S_S4096x1024 : S_.BroadcastsInDim S4096x1024 (![] : Fin 0 → Fin S4096x1024.rank)
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.KernelGates.lean ====
/-
  The kernel body's pre-activation block at an index, on the extended reals. The body holds 256 batch rows of the
  input and of the previous hidden state, the two halves of the weights (each 4096 rows of 1024 columns) and the bias
  as one row. It multiplies each of the two 256 × 1024 blocks with its half of the weights, contracting the LAST
  axis of both operands — entry (p, j) of a product is ∑ₖ A(p,k) · B(j,k), no transpose is materialised — into a zero
  accumulator, adds the two products, and adds the bias row spread down the 256 rows. A change of float format is the
  identity on the extended reals and adding to the zero accumulator changes nothing, so entry (p, j) of the block is

      (∑ₖ x(p,k) · Wx(j,k) + ∑ₖ h(p,k) · Wh(j,k)) + b(0,j).
-/
import proofs.«181645_j53300544143475_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The product's dimension numbers: the left operand's row is the result's row, -/
theorem lhs_row (i : S256x4096.Idx) (q : dot_S256x1024_S4096x1024_S256x4096_1_1_0_0_n_n.contr.Idx) :
    (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide),
    dif_pos (show (0 : Fin S256x1024.rank) ∈ dot_S256x1024_S4096x1024_S256x4096_1_1_0_0_n_n.lhsNonContracting by decide)]
  rfl
/-- its column the contracted coordinate; -/
theorem lhs_col (i : S256x4096.Idx) (q : dot_S256x1024_S4096x1024_S256x4096_1_1_0_0_n_n.contr.Idx) :
    (dot_S256x1024_S4096x1024_S256x4096_1_1_0_0_n_n.lhsIdx i q 1).val = (q ⟨0, by decide⟩).val :=
  dot_S256x1024_S4096x1024_S256x4096_1_1_0_0_n_n.lhsIdx_val_of_single rfl i q
/-- the right operand's row is the result's column, -/
theorem rhs_row (i : S256x4096.Idx) (q : dot_S256x1024_S4096x1024_S256x4096_1_1_0_0_n_n.contr.Idx) :
    (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide),
    dif_pos (show (0 : Fin S4096x1024.rank) ∈ dot_S256x1024_S4096x1024_S256x4096_1_1_0_0_n_n.rhsNonContracting by decide)]
  rfl
/-- and its column the contracted coordinate too. -/
theorem rhs_col (i : S256x4096.Idx) (q : dot_S256x1024_S4096x1024_S256x4096_1_1_0_0_n_n.contr.Idx) :
    (dot_S256x1024_S4096x1024_S256x4096_1_1_0_0_n_n.rhsIdx i q 1).val = (q ⟨0, by decide⟩).val :=
  dot_S256x1024_S4096x1024_S256x4096_1_1_0_0_n_n.rhsIdx_val_of_single rfl i q

/-- The body's matrix product into the zero accumulator, at entry (p, j): the sum over the 1024 shared columns. -/
theorem matmul_lastAxes_apply (A : FVec Ideal S256x1024 .bf16) (B : FVec Ideal S4096x1024 .bf16) (p : Fin 256) (j : Fin 4096) :
    matmul dot_S256x1024_S4096x1024_S256x4096_1_1_0_0_n_n none A B (constant S256x4096 .f32 0x00000000#32) (ix2 p j)
      = ∑ k : Fin 1024, A (ix2 p k) * B (ix2 j k) := by
  simp only [matmul]
  rw [Ideal.matmul_constant_zero_apply, ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p j) ((contrEquiv1 dot_S256x1024_S4096x1024_S256x4096_1_1_0_0_n_n 1024 rfl rfl).symm k) = ix2 p k := funext fun a => Fin.ext (by
    match a with
    | ⟨0, _⟩ => exact lhs_row _ _
    | ⟨1, _⟩ => exact (lhs_col _ _).trans hk)
  have er : dot_S256x1024_S4096x1024_S256x4096_1_1_0_0_n_n.rhsIdx (ix2 p j) ((contrEquiv1 dot_S256x1024_S4096x1024_S256x4096_1_1_0_0_n_n 1024 rfl rfl).symm k) = ix2 j k := funext fun a => Fin.ext (by
    match a with
    | ⟨0, _⟩ => exact rhs_row _ _
    | ⟨1, _⟩ => exact (rhs_col _ _).trans hk)
  rw [el, er]

/-- The bias row spread down the 256 rows, at entry (p, j), is the row's entry j. -/
theorem bias_spread_apply (v : Vec Ideal S1x4096 .f32) (p : Fin 256) (j : Fin 4096) :
    broadcastTo S256x4096 (shapeCast S1x4096 v shapeCasts_S1x4096_S1x4096) broadcasts_S1x4096_S256x4096 (ix2 p j)
      = v (ix2 (0 : Fin 1) j) := by
  rw [shapeCast_self]
  exact broadcastTo_apply v broadcasts_S1x4096_S256x4096 (ix2 p j) (ix2 (0 : Fin 1) j) (fun a => match a with
    | ⟨0, _⟩ => by show 0 = if (1 : Nat) = 1 then 0 else p.val; rw [if_pos rfl]
    | ⟨1, _⟩ => by show j.val = if (4096 : Nat) = 1 then 0 else j.val; rw [if_neg (by decide)])

/-- THE PRE-ACTIVATION BLOCK at entry (p, j). -/
theorem gates_block_apply (x0 x1 : Vec Ideal S256x1024 .f32) (wx wh : Vec Ideal S4096x1024 .bf16) (b : Vec Ideal S1x4096 .f32)
    (p : Fin 256) (j : Fin 4096) :
    k0_pay1 (F := Ideal) x0 x1 wx wh b (ix2 p j)
      = (∑ k : Fin 1024, x0 (ix2 p k) * wx (ix2 j k) + ∑ k : Fin 1024, x1 (ix2 p k) * wh (ix2 j k)) + b (ix2 (0 : Fin 1) j) := by
  unfold k0_pay1
  show (matmul dot_S256x1024_S4096x1024_S256x4096_1_1_0_0_n_n none _ _ _ (ix2 p j) + matmul dot_S256x1024_S4096x1024_S256x4096_1_1_0_0_n_n none _ _ _ (ix2 p j)) + broadcastTo S256x4096 _ _ (ix2 p j) = _
  rw [bias_spread_apply, matmul_lastAxes_apply, matmul_lastAxes_apply, shapeCast_self, shapeCast_self]
  rfl

end Cert.KernelIdeal.Hand

end
-- ==== Proof.LstmSpec.lean ====
/-
  One step of an LSTM cell on the extended reals, entry by entry: the specification both programs are compared with.
  For a batch row `r` and a gate column `j` the pre-activation is

      gate r j = (∑ₖ x(r,k) · W(j,k)  +  ∑ₖ h(r,k) · W(j,1024+k))  +  b(j),

  the input's 1024 features against the first 1024 columns of row `j` of the weights, the previous hidden state's
  1024 against the last 1024. The 4096 gate columns are four runs of 1024: forget, input, candidate, output. Then

      cell r q   = σ(gate r q) · c(r,q) + σ(gate r (1024+q)) · tanh(gate r (2048+q)),
      hidden r q = σ(gate r (3072+q)) · tanh(cell r q),

  with σ the logistic function `1 / (1 + e^(-x))` and tanh as the extended reals read them (their limits at ±∞).
  Nothing here depends on a program.
-/
import Idealize.ShloMosaic.PureOps.Ideal
import Idealize.ShloMosaic.Lib.ValueIdx

noncomputable section

namespace Cert.Lstm

open Idealize.ShloMosaic Idealize.ShloMosaic.ValueIdx

/-- Feature `k` of the input among the 2048 weight columns: column `k`. -/
abbrev colX (k : Fin 1024) : Fin 2048 := ⟨k.val, by have := k.isLt; omega⟩
/-- Feature `k` of the previous hidden state among the 2048 weight columns: column `1024 + k`. -/
abbrev colH (k : Fin 1024) : Fin 2048 := ⟨1024 + k.val, by have := k.isLt; omega⟩

/-- Unit `q`'s column in each of the four gates' runs of the 4096 gate columns. -/
abbrev colF (q : Fin 1024) : Fin 4096 := ⟨q.val, by have := q.isLt; omega⟩
abbrev colI (q : Fin 1024) : Fin 4096 := ⟨1024 + q.val, by have := q.isLt; omega⟩
abbrev colG (q : Fin 1024) : Fin 4096 := ⟨2048 + q.val, by have := q.isLt; omega⟩
abbrev colO (q : Fin 1024) : Fin 4096 := ⟨3072 + q.val, by have := q.isLt; omega⟩

/-- The pre-activation of gate column `j` for batch row `r`: the input's and the hidden state's contractions against
    the two halves of row `j` of the weights, added, plus the bias. -/
def gate (x h : (⟨2, ![4096, 1024]⟩ : Shape).Idx → EReal) (W : (⟨2, ![4096, 2048]⟩ : Shape).Idx → EReal)
    (b : (⟨1, ![4096]⟩ : Shape).Idx → EReal) (r j : Fin 4096) : EReal :=
  (∑ k : Fin 1024, x (ix2 r k) * W (ix2 j (colX k)) + ∑ k : Fin 1024, h (ix2 r k) * W (ix2 j (colH k))) + b (ix1 j)

/-- The new cell state of unit `q` in batch row `r`. -/
def cell (x h c : (⟨2, ![4096, 1024]⟩ : Shape).Idx → EReal) (W : (⟨2, ![4096, 2048]⟩ : Shape).Idx → EReal)
    (b : (⟨1, ![4096]⟩ : Shape).Idx → EReal) (r : Fin 4096) (q : Fin 1024) : EReal :=
  Ideal.logistic (gate x h W b r (colF q)) * c (ix2 r q)
    + Ideal.logistic (gate x h W b r (colI q)) * Ideal.tanh (gate x h W b r (colG q))

/-- The new hidden state of unit `q` in batch row `r`. -/
def hidden (x h c : (⟨2, ![4096, 1024]⟩ : Shape).Idx → EReal) (W : (⟨2, ![4096, 2048]⟩ : Shape).Idx → EReal)
    (b : (⟨1, ![4096]⟩ : Shape).Idx → EReal) (r : Fin 4096) (q : Fin 1024) : EReal :=
  Ideal.logistic (gate x h W b r (colO q)) * Ideal.tanh (cell x h c W b r q)

/-- The new cell states as one array. -/
def cellArr (x h c : (⟨2, ![4096, 1024]⟩ : Shape).Idx → EReal) (W : (⟨2, ![4096, 2048]⟩ : Shape).Idx → EReal)
    (b : (⟨1, ![4096]⟩ : Shape).Idx → EReal) : (⟨2, ![4096, 1024]⟩ : Shape).Idx → EReal :=
  fun i => cell x h c W b (i 0) (i 1)

/-- The new hidden states as one array. -/
def hiddenArr (x h c : (⟨2, ![4096, 1024]⟩ : Shape).Idx → EReal) (W : (⟨2, ![4096, 2048]⟩ : Shape).Idx → EReal)
    (b : (⟨1, ![4096]⟩ : Shape).Idx → EReal) : (⟨2, ![4096, 1024]⟩ : Shape).Idx → EReal :=
  fun i => hidden x h c W b (i 0) (i 1)

theorem cellArr_ix2 (x h c : (⟨2, ![4096, 1024]⟩ : Shape).Idx → EReal) (W : (⟨2, ![4096, 2048]⟩ : Shape).Idx → EReal)
    (b : (⟨1, ![4096]⟩ : Shape).Idx → EReal) (r : Fin 4096) (q : Fin 1024) :
    cellArr x h c W b (ix2 r q) = cell x h c W b r q := rfl

theorem hiddenArr_ix2 (x h c : (⟨2, ![4096, 1024]⟩ : Shape).Idx → EReal) (W : (⟨2, ![4096, 2048]⟩ : Shape).Idx → EReal)
    (b : (⟨1, ![4096]⟩ : Shape).Idx → EReal) (r : Fin 4096) (q : Fin 1024) :
    hiddenArr x h c W b (ix2 r q) = hidden x h c W b r q := rfl

end Cert.Lstm

end
-- ==== Proof.KernelBlock.lean ====
/-
  What the kernel body leaves in its two output blocks, on the extended reals, as the specification (LstmSpec.lean)
  at the rows the block holds. The body works on 256 batch rows at a time: it loads the block of the input, of the
  previous hidden state and of the previous cell state, the whole weight matrix as its two halves of 1024 columns
  (columns 0–1023 against the input, 1024–2047 against the hidden state) and the bias row, and stores one block of
  new cell states and one of new hidden states. If local row `p` of the three loaded blocks is row `row p` of the
  whole arrays, the stored entry (p, q) is `cell … (row p) q`, respectively `hidden … (row p) q`.
-/
import proofs.«181645_j53300544143475_2_alg».proof.Proof.Gen.KernelIdeal.Value
import proofs.«181645_j53300544143475_2_alg».proof.Proof.KernelGates
import proofs.«181645_j53300544143475_2_alg».proof.Proof.LstmSpec

noncomputable section

namespace Cert.KernelIdeal.Hand

open Cert.KernelIdeal Cert.KernelIdeal.Gen Cert.KernelIdeal.Value Idealize.ShloMosaic Idealize.ShloMosaic.ValueIdx
open Cert.Lstm

section Block

variable (x0 x1 x2 : Vec Ideal S256x1024 .f32) (x3 : Vec Ideal S4096x2048 .bf16) (x4 : Vec Ideal S1x4096 .f32)
  (X H C : (⟨2, ![4096, 1024]⟩ : Shape).Idx → EReal) (W : (⟨2, ![4096, 2048]⟩ : Shape).Idx → EReal)
  (B : (⟨1, ![4096]⟩ : Shape).Idx → EReal) (row : Fin 256 → Fin 4096)

/-- The pre-activation block over the body's loads is the specification's `gate` at the block's rows: the two loads
    of the weights are its first and last 1024 columns. -/
theorem gate_block
    (h0 : ∀ (p : Fin 256) (k : Fin 1024), x0 (ix2 p k) = X (ix2 (row p) k))
    (h1 : ∀ (p : Fin 256) (k : Fin 1024), x1 (ix2 p k) = H (ix2 (row p) k))
    (h3 : ∀ (j : Fin 4096) (k : Fin 2048), x3 (ix2 j k) = W (ix2 j k))
    (h4 : ∀ j : Fin 4096, x4 (ix2 (0 : Fin 1) j) = B (ix1 j))
    (p : Fin 256) (j : Fin 4096) :
    k0_pay1 (F := Ideal) (View.ld x0 r0_0) (View.ld x1 r0_0) (View.ld x3 r0_1) (View.ld x3 r0_2) (View.ld x4 r0_3) (ix2 p j)
      = gate X H W B (row p) j := by
  rw [gates_block_apply]
  unfold gate
  refine congrArg₂ (· + ·) (congrArg₂ (· + ·) (Finset.sum_congr rfl fun k _ => ?_) (Finset.sum_congr rfl fun k _ => ?_)) ?_
  · have e0 : View.ld x0 r0_0 (ix2 p k) = x0 (ix2 p k) := congrArg x0 (funext fun a => Fin.ext (by
      match a with
      | ⟨0, _⟩ => show 0 + 1 * p.val = p.val; omega
      | ⟨1, _⟩ => show 0 + 1 * k.val = k.val; omega))
    have e3 : View.ld x3 r0_1 (ix2 j k) = x3 (ix2 j (colX k)) := congrArg x3 (funext fun a => Fin.ext (by
      match a with
      | ⟨0, _⟩ => show 0 + 1 * j.val = j.val; omega
      | ⟨1, _⟩ => show 0 + 1 * k.val = k.val; omega))
    rw [e0, e3, h0, h3]
  · have e1 : View.ld x1 r0_0 (ix2 p k) = x1 (ix2 p k) := congrArg x1 (funext fun a => Fin.ext (by
      match a with
      | ⟨0, _⟩ => show 0 + 1 * p.val = p.val; omega
      | ⟨1, _⟩ => show 0 + 1 * k.val = k.val; omega))
    have e3 : View.ld x3 r0_2 (ix2 j k) = x3 (ix2 j (colH k)) := congrArg x3 (funext fun a => Fin.ext (by
      match a with
      | ⟨0, _⟩ => show 0 + 1 * j.val = j.val; omega
      | ⟨1, _⟩ => show 1024 + 1 * k.val = 1024 + k.val; omega))
    rw [e1, e3, h1, h3]
  · have e4 : View.ld x4 r0_3 (ix2 (0 : Fin 1) j) = x4 (ix2 (0 : Fin 1) j) := congrArg x4 (funext fun a => Fin.ext (by
      match a with
      | ⟨0, _⟩ => show 0 + 1 * 0 = 0; omega
      | ⟨1, _⟩ => show 0 + 1 * j.val = j.val; omega))
    rw [e4, h4]

/-- The loaded block of previous cell states at (p, q). -/
theorem cprev_block (h2 : ∀ (p : Fin 256) (k : Fin 1024), x2 (ix2 p k) = C (ix2 (row p) k)) (p : Fin 256) (q : Fin 1024)
    (y : S256x1024.Idx) (hy0 : (y 0).val = p.val) (hy1 : (y 1).val = q.val) :
    View.ld x2 r0_0 y = C (ix2 (row p) q) := by
  rw [← h2]
  exact congrArg x2 (funext fun a => Fin.ext (by
    match a with
    | ⟨0, _⟩ => show 0 + 1 * (y 0).val = p.val; omega
    | ⟨1, _⟩ => show 0 + 1 * (y 1).val = q.val; omega))

/-- THE BLOCK OF NEW CELL STATES the body stores, at (p, q). -/
theorem cell_block
    (h0 : ∀ (p : Fin 256) (k : Fin 1024), x0 (ix2 p k) = X (ix2 (row p) k))
    (h1 : ∀ (p : Fin 256) (k : Fin 1024), x1 (ix2 p k) = H (ix2 (row p) k))
    (h2 : ∀ (p : Fin 256) (k : Fin 1024), x2 (ix2 p k) = C (ix2 (row p) k))
    (h3 : ∀ (j : Fin 4096) (k : Fin 2048), x3 (ix2 j k) = W (ix2 j k))
    (h4 : ∀ j : Fin 4096, x4 (ix2 (0 : Fin 1) j) = B (ix1 j))
    (p : Fin 256) (q : Fin 1024) :
    out0_6 (F := Ideal) x0 x1 x2 x3 x4 (ix2 p q) = cell X H C W B (row p) q := by
  unfold out0_6
  rw [canon6_eq]
  have i0 : ix6_0 (ix2 p q) = ix2 p (colF q) := funext fun a => Fin.ext (by
    match a with | ⟨0, _⟩ => rfl | ⟨1, _⟩ => rfl)
  have i2 : ix6_2 (ix2 p q) = ix2 p (colI q) := funext fun a => Fin.ext (by
    match a with | ⟨0, _⟩ => rfl | ⟨1, _⟩ => show q.val + 1024 = 1024 + q.val; omega)
  have i3 : ix6_3 (ix2 p q) = ix2 p (colG q) := funext fun a => Fin.ext (by
    match a with | ⟨0, _⟩ => rfl | ⟨1, _⟩ => show q.val + 2048 = 2048 + q.val; omega)
  show (Ideal.logistic (k0_pay1 (F := Ideal) _ _ _ _ _ (ix6_0 (ix2 p q))) * View.ld x2 r0_0 (ix6_1 (ix2 p q)))
      + (Ideal.logistic (k0_pay1 (F := Ideal) _ _ _ _ _ (ix6_2 (ix2 p q))) * Ideal.tanh (k0_pay1 (F := Ideal) _ _ _ _ _ (ix6_3 (ix2 p q)))) = _
  rw [i0, i2, i3, gate_block x0 x1 x3 x4 X H W B row h0 h1 h3 h4, gate_block x0 x1 x3 x4 X H W B row h0 h1 h3 h4,
    gate_block x0 x1 x3 x4 X H W B row h0 h1 h3 h4, cprev_block x2 C row h2 p q _ rfl rfl]
  rfl

/-- THE BLOCK OF NEW HIDDEN STATES the body stores, at (p, q). -/
theorem hidden_block
    (h0 : ∀ (p : Fin 256) (k : Fin 1024), x0 (ix2 p k) = X (ix2 (row p) k))
    (h1 : ∀ (p : Fin 256) (k : Fin 1024), x1 (ix2 p k) = H (ix2 (row p) k))
    (h2 : ∀ (p : Fin 256) (k : Fin 1024), x2 (ix2 p k) = C (ix2 (row p) k))
    (h3 : ∀ (j : Fin 4096) (k : Fin 2048), x3 (ix2 j k) = W (ix2 j k))
    (h4 : ∀ j : Fin 4096, x4 (ix2 (0 : Fin 1) j) = B (ix1 j))
    (p : Fin 256) (q : Fin 1024) :
    out0_5 (F := Ideal) x0 x1 x2 x3 x4 (ix2 p q) = hidden X H C W B (row p) q := by
  unfold out0_5
  rw [canon5_eq]
  have i0 : ix5_0 (ix2 p q) = ix2 p (colO q) := funext fun a => Fin.ext (by
    match a with | ⟨0, _⟩ => rfl | ⟨1, _⟩ => show q.val + 3072 = 3072 + q.val; omega)
  have i1 : ix5_1 (ix2 p q) = ix2 p (colF q) := funext fun a => Fin.ext (by
    match a with | ⟨0, _⟩ => rfl | ⟨1, _⟩ => rfl)
  have i3 : ix5_3 (ix2 p q) = ix2 p (colI q) := funext fun a => Fin.ext (by
    match a with | ⟨0, _⟩ => rfl | ⟨1, _⟩ => show q.val + 1024 = 1024 + q.val; omega)
  have i4 : ix5_4 (ix2 p q) = ix2 p (colG q) := funext fun a => Fin.ext (by
    match a with | ⟨0, _⟩ => rfl | ⟨1, _⟩ => show q.val + 2048 = 2048 + q.val; omega)
  show Ideal.logistic (k0_pay1 (F := Ideal) _ _ _ _ _ (ix5_0 (ix2 p q)))
      * Ideal.tanh ((Ideal.logistic (k0_pay1 (F := Ideal) _ _ _ _ _ (ix5_1 (ix2 p q))) * View.ld x2 r0_0 (ix5_2 (ix2 p q)))
        + (Ideal.logistic (k0_pay1 (F := Ideal) _ _ _ _ _ (ix5_3 (ix2 p q))) * Ideal.tanh (k0_pay1 (F := Ideal) _ _ _ _ _ (ix5_4 (ix2 p q))))) = _
  rw [i0, i1, i3, i4, gate_block x0 x1 x3 x4 X H W B row h0 h1 h3 h4, gate_block x0 x1 x3 x4 X H W B row h0 h1 h3 h4,
    gate_block x0 x1 x3 x4 X H W B row h0 h1 h3 h4, gate_block x0 x1 x3 x4 X H W B row h0 h1 h3 h4,
    cprev_block x2 C row h2 p q _ rfl rfl]
  rfl

end Block

end Cert.KernelIdeal.Hand

end
-- ==== Proof.KernelArrays.lean ====
/-
  From blocks to arrays: what the kernel's two result arrays hold after its run, on the extended reals, as the
  specification's arrays (LstmSpec.lean) of the argument arrays.
  The grid has 16 points; point `t` holds batch rows 256·t … 256·t + 255 of the input, of the previous hidden state
  and of the previous cell state, and writes back the same rows of both results; the weights (converted to the
  narrower float format before the call, which is the identity here) and the bias (recast from a vector to a
  one-row matrix before the call) are the same whole block at every point. So what point `t` writes back is block `t`
  of the specification's array (the per-block lemmas of KernelBlock.lean, at the rows 256·t + p), and the 16 blocks
  cover all 4096 rows: row r lies in the block of point r / 256.
-/
import proofs.«181645_j53300544143475_2_alg».proof.Proof.Gen.KernelIdeal.Value
import proofs.«181645_j53300544143475_2_alg».proof.Proof.KernelBlock
import proofs.«181645_j53300544143475_2_alg».proof.Proof.LstmSpec
import Idealize.ShloMosaic.Lib.StableHlo.Run
import Idealize.ShloMosaic.Lib.ValueLayout

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.Lstm

variable (m : (ℓ : Loc nD τ sig) → Buf (Elt Ideal) ℓ) (ρ : Dev nD → PrngReg)

/-! ## Where each window's block sits, decided over the 16 grid points -/

/-- The three batch-tiled inputs and both outputs move together down the rows, one block of 256 rows per point, and
    stay at column block 0; the weights and the bias stay at block (0, 0); the row block is at most 15. -/
theorem block_positions : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = win0_6.index t (0 : Fin 2) ∧ win0_5.index t (1 : Fin 2) = 0
    ∧ win0_6.index t (1 : Fin 2) = 0 ∧ win0_6.index t (0 : Fin 2) ≤ 15 :=
  (by decide +kernel : ∀ t : Fin grid0.N, _)

/-- Every one of the 16 row blocks is some point's. -/
theorem block_onto : ∀ q0 : Fin 16, ∃ t : Fin cfg0.N, win0_6.index t (0 : Fin 2) = q0.val :=
  (by decide +kernel : ∀ q0 : Fin 16, ∃ t : Fin grid0.N, win0_6.index t (0 : Fin 2) = q0.val)

/-- The row of the whole arrays that local row `p` of point `t`'s blocks is. -/
def rowAt (t : Fin cfg0.N) (p : Fin 256) : Fin 4096 :=
  ⟨win0_6.index t (0 : Fin 2) * 256 + p.val, by
    have h := (block_positions t).2.2.2.2.2.2.2.2.2.2.2.2.2
    have hp := p.isLt
    omega⟩

/-! ## The two arrays the host writes before the call -/

/-- The weights the kernel stages: the argument's entries (the conversion to the narrower format is the identity). -/
theorem V_weights (c : Dev nD) : (V m c main_v0 : S4096x2048.Idx → EReal) = m ((c : Thread nD τ).loc main_arg3) := by
  dsimp only [Gen.V, Gen.hostOps0]
  after_results
  rfl

/-- The bias the kernel stages: the argument recast as one row. -/
theorem V_bias (c : Dev nD) :
    (V m c main_v1 : S1x4096.Idx → EReal) = shapeCast S1x4096 (m ((c : Thread nD τ).loc main_arg4)) shapeCasts_S4096_S1x4096 := by
  dsimp only [Gen.V, Gen.hostOps0]
  after_results
  rfl

/-! ## Each input window's block at a point, read off its array -/

theorem blk_x (c : Dev nD) (t : Fin cfg0.N) (p : Fin 256) (k : Fin 1024) :
    iblk m c 0 t (ix2 p k) = V m c main_arg0 (ix2 (rowAt t p) k) := by
  obtain ⟨e00, e01, -⟩ := block_positions t
  show V m c main_arg0 (((cfg0.win 0).blk t).view.emb (ix2 p k)) = V m c main_arg0 (ix2 (rowAt t p) k)
  refine congrArg (V m c main_arg0) (funext fun a => Fin.ext ?_)
  match a with
  | ⟨0, _⟩ => show win0_0.index t (0 : Fin 2) * 256 + 1 * p.val = win0_6.index t (0 : Fin 2) * 256 + p.val; omega
  | ⟨1, _⟩ => show win0_0.index t (1 : Fin 2) * 1024 + 1 * k.val = k.val; omega

theorem blk_h (c : Dev nD) (t : Fin cfg0.N) (p : Fin 256) (k : Fin 1024) :
    iblk m c 1 t (ix2 p k) = V m c main_arg1 (ix2 (rowAt t p) k) := by
  obtain ⟨-, -, e10, e11, -⟩ := block_positions t
  show V m c main_arg1 (((cfg0.win 1).blk t).view.emb (ix2 p k)) = V m c main_arg1 (ix2 (rowAt t p) k)
  refine congrArg (V m c main_arg1) (funext fun a => Fin.ext ?_)
  match a with
  | ⟨0, _⟩ => show win0_1.index t (0 : Fin 2) * 256 + 1 * p.val = win0_6.index t (0 : Fin 2) * 256 + p.val; omega
  | ⟨1, _⟩ => show win0_1.index t (1 : Fin 2) * 1024 + 1 * k.val = k.val; omega

theorem blk_c (c : Dev nD) (t : Fin cfg0.N) (p : Fin 256) (k : Fin 1024) :
    iblk m c 2 t (ix2 p k) = V m c main_arg2 (ix2 (rowAt t p) k) := by
  obtain ⟨-, -, -, -, e20, e21, -⟩ := block_positions t
  show V m c main_arg2 (((cfg0.win 2).blk t).view.emb (ix2 p k)) = V m c main_arg2 (ix2 (rowAt t p) k)
  refine congrArg (V m c main_arg2) (funext fun a => Fin.ext ?_)
  match a with
  | ⟨0, _⟩ => show win0_2.index t (0 : Fin 2) * 256 + 1 * p.val = win0_6.index t (0 : Fin 2) * 256 + p.val; omega
  | ⟨1, _⟩ => show win0_2.index t (1 : Fin 2) * 1024 + 1 * k.val = k.val; omega

theorem blk_w (c : Dev nD) (t : Fin cfg0.N) (j : Fin 4096) (k : Fin 2048) :
    iblk m c 3 t (ix2 j k) = m ((c : Thread nD τ).loc main_arg3) (ix2 j k) := by
  obtain ⟨-, -, -, -, -, -, e30, e31, -⟩ := block_positions t
  rw [← V_weights m c]
  show V m c main_v0 (((cfg0.win 3).blk t).view.emb (ix2 j k)) = V m c main_v0 (ix2 j k)
  refine congrArg (V m c main_v0) (funext fun a => Fin.ext ?_)
  match a with
  | ⟨0, _⟩ => show win0_3.index t (0 : Fin 2) * 4096 + 1 * j.val = j.val; omega
  | ⟨1, _⟩ => show win0_3.index t (1 : Fin 2) * 2048 + 1 * k.val = k.val; omega

theorem blk_b (c : Dev nD) (t : Fin cfg0.N) (j : Fin 4096) :
    iblk m c 4 t (ix2 (0 : Fin 1) j) = m ((c : Thread nD τ).loc main_arg4) (ix1 j) := by
  obtain ⟨-, -, -, -, -, -, -, -, e40, e41, -⟩ := block_positions t
  have e : V m c main_v1 (ix2 (0 : Fin 1) j) = m ((c : Thread nD τ).loc main_arg4) (ix1 j) := by
    rw [V_bias m c]
    exact shapeCast_a_1a_apply _ shapeCasts_S4096_S1x4096 (0 : Fin 1) j
  rw [← e]
  show V m c main_v1 (((cfg0.win 4).blk t).view.emb (ix2 (0 : Fin 1) j)) = V m c main_v1 (ix2 (0 : Fin 1) j)
  refine congrArg (V m c main_v1) (funext fun a => Fin.ext ?_)
  match a with
  | ⟨0, _⟩ => show win0_4.index t (0 : Fin 2) * 1 + 1 * 0 = 0; omega
  | ⟨1, _⟩ => show win0_4.index t (1 : Fin 2) * 4096 + 1 * j.val = j.val; omega

/-! ## What each point writes back -/

/-- The specification's arrays of the arrays as the call finds them. -/
abbrev cellOf (c : Dev nD) : S4096x1024.Idx → EReal :=
  cellArr (V m c main_arg0) (V m c main_arg1) (V m c main_arg2) (m ((c : Thread nD τ).loc main_arg3)) (m ((c : Thread nD τ).loc main_arg4))
abbrev hiddenOf (c : Dev nD) : S4096x1024.Idx → EReal :=
  hiddenArr (V m c main_arg0) (V m c main_arg1) (V m c main_arg2) (m ((c : Thread nD τ).loc main_arg3)) (m ((c : Thread nD τ).loc main_arg4))

/-- Point `t` writes back block `t` of the new cell states. -/
theorem flushed_cell (c : Dev nD) (t : Fin cfg0.N) :
    (dats m 0 c).flushed 6 t = ((cfg0.win 6).blk t).view.read (Elt Ideal) (cellOf m c) := by
  rw [Value.flushed6]
  obtain ⟨-, -, -, -, -, -, -, -, -, -, -, -, e61, -⟩ := block_positions t
  funext y
  obtain ⟨p, q, rfl⟩ : ∃ (p : Fin 256) (q : Fin 1024), y = ix2 p q := ⟨y 0, y 1, eq_ix2 y⟩
  show out0_6 (iblk m c 0 t) (iblk m c 1 t) (iblk m c 2 t) (iblk m c 3 t) (iblk m c 4 t) (ix2 p q)
    = cellOf m c (((cfg0.win 6).blk t).view.emb (ix2 p q))
  have e : ((cfg0.win 6).blk t).view.emb (ix2 p q) = ix2 (rowAt t p) q := funext fun a => Fin.ext (by
    match a with
    | ⟨0, _⟩ => show win0_6.index t (0 : Fin 2) * 256 + 1 * p.val = win0_6.index t (0 : Fin 2) * 256 + p.val; omega
    | ⟨1, _⟩ => show win0_6.index t (1 : Fin 2) * 1024 + 1 * q.val = q.val; omega)
  rw [e]
  exact cell_block (iblk m c 0 t) (iblk m c 1 t) (iblk m c 2 t) (iblk m c 3 t) (iblk m c 4 t)
    (V m c main_arg0) (V m c main_arg1) (V m c main_arg2) (m ((c : Thread nD τ).loc main_arg3)) (m ((c : Thread nD τ).loc main_arg4))
    (rowAt t) (blk_x m c t) (blk_h m c t) (blk_c m c t) (blk_w m c t) (blk_b m c t) p q

/-- Point `t` writes back block `t` of the new hidden states. -/
theorem flushed_hidden (c : Dev nD) (t : Fin cfg0.N) :
    (dats m 0 c).flushed 5 t = ((cfg0.win 5).blk t).view.read (Elt Ideal) (hiddenOf m c) := by
  rw [Value.flushed5]
  obtain ⟨-, -, -, -, -, -, -, -, -, -, e50, e51, -⟩ := block_positions t
  funext y
  obtain ⟨p, q, rfl⟩ : ∃ (p : Fin 256) (q : Fin 1024), y = ix2 p q := ⟨y 0, y 1, eq_ix2 y⟩
  show out0_5 (iblk m c 0 t) (iblk m c 1 t) (iblk m c 2 t) (iblk m c 3 t) (iblk m c 4 t) (ix2 p q)
    = hiddenOf m c (((cfg0.win 5).blk t).view.emb (ix2 p q))
  have e : ((cfg0.win 5).blk t).view.emb (ix2 p q) = ix2 (rowAt t p) q := funext fun a => Fin.ext (by
    match a with
    | ⟨0, _⟩ => show win0_5.index t (0 : Fin 2) * 256 + 1 * p.val = win0_6.index t (0 : Fin 2) * 256 + p.val; omega
    | ⟨1, _⟩ => show win0_5.index t (1 : Fin 2) * 1024 + 1 * q.val = q.val; omega)
  rw [e]
  exact hidden_block (iblk m c 0 t) (iblk m c 1 t) (iblk m c 2 t) (iblk m c 3 t) (iblk m c 4 t)
    (V m c main_arg0) (V m c main_arg1) (V m c main_arg2) (m ((c : Thread nD τ).loc main_arg3)) (m ((c : Thread nD τ).loc main_arg4))
    (rowAt t) (blk_x m c t) (blk_h m c t) (blk_c m c t) (blk_w m c t) (blk_b m c t) p q

/-! ## The blocks cover the arrays -/

/-- An index of the array is in point `t`'s block iff each coordinate is in the block's range on its axis. -/
theorem mem_blk_cell (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v2_1).slice (win0_6.rect t)).set ↔ _
  rw [View.set_slice_whole, Rect.mem_set_unit]
  exact Iff.rfl

theorem mem_blk_hidden (t : Fin cfg0.N) (i : S4096x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v2_0).slice (win0_5.rect t)).set ↔ _
  rw [View.set_slice_whole, Rect.mem_set_unit]
  exact Iff.rfl

/-- Row r of the new cell states lies in the block of point r / 256. -/
theorem cover_cell (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  obtain ⟨t, q0⟩ := block_onto ⟨(i 0).val / 256, by omega⟩
  have q0' : win0_6.index t (0 : Fin 2) = (i 0).val / 256 := q0
  obtain ⟨-, -, -, -, -, -, -, -, -, -, -, -, q1, -⟩ := block_positions t
  refine ⟨t, flush0_6 t, ?_⟩
  rw [mem_blk_cell]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- Row r of the new hidden states lies in the block of point r / 256. -/
theorem cover_hidden (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  obtain ⟨t, q0⟩ := block_onto ⟨(i 0).val / 256, by omega⟩
  have q0' : win0_6.index t (0 : Fin 2) = (i 0).val / 256 := q0
  obtain ⟨-, -, -, -, -, -, -, -, -, -, e50, e51, -⟩ := block_positions t
  refine ⟨t, flush0_5 t, ?_⟩
  rw [mem_blk_hidden]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-! ## The arrays after the run, and the run -/

/-- The second result array after the run: the new cell states of the arguments. -/
theorem final_cell (c : Dev nD) :
    (dats m 0 c).arrAt 6 cfg0.N = cellArr (m ((c : Thread nD τ).loc main_arg0)) (m ((c : Thread nD τ).loc main_arg1))
      (m ((c : Thread nD τ).loc main_arg2)) (m ((c : Thread nD τ).loc main_arg3)) (m ((c : Thread nD τ).loc main_arg4)) := by
  rw [(dats m 0 c).arrAt_eq_of_cover 6 (cellOf m c) (fun t _ => flushed_cell m c t) cover_cell]
  show cellArr (V m c main_arg0) (V m c main_arg1) (V m c main_arg2) _ _ = _
  rw [V_main_arg0, V_main_arg1, V_main_arg2]

/-- The first result array after the run: the new hidden states of the arguments. -/
theorem final_hidden (c : Dev nD) :
    (dats m 0 c).arrAt 5 cfg0.N = hiddenArr (m ((c : Thread nD τ).loc main_arg0)) (m ((c : Thread nD τ).loc main_arg1))
      (m ((c : Thread nD τ).loc main_arg2)) (m ((c : Thread nD τ).loc main_arg3)) (m ((c : Thread nD τ).loc main_arg4)) := by
  rw [(dats m 0 c).arrAt_eq_of_cover 5 (hiddenOf m c) (fun t _ => flushed_hidden m c t) cover_hidden]
  show hiddenArr (V m c main_arg0) (V m c main_arg1) (V m c main_arg2) _ _ = _
  rw [V_main_arg0, V_main_arg1, V_main_arg2]

/-- THE KERNEL'S RUN, read: every weakly fair execution terminates with the two results at the specification's arrays
    of the arguments, the arguments unchanged. -/
theorem run : θ_run defs (onTc (τ := τ) (main (F := Ideal))) ⟨m, fun _ => 0, ρ⟩ fun r => ∀ c : Dev nD,
      r.2.mem ((c : Thread nD τ).loc main_v2_0) = hiddenArr (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_v2_1) = cellArr (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_hidden m c), (h c).2.1.trans (final_cell m c), (h c).2.2⟩)
    (Value.run_blocks m ρ)

end Cert.KernelIdeal.Hand

end
-- ==== Proof.LibSplitSum.lean ====
/-
  A finite sum over `a + b` consecutive positions is the sum over the first `a` of them plus the sum over the
  last `b`, in any commutative monoid. On the extended reals this is the law by which a contraction against two
  matrices laid side by side (one joined row of `a + b` entries) is the sum of the two separate contractions: it
  uses only that addition is commutative and associative, so it holds at the infinities too, with no finiteness
  hypothesis. Nothing here depends on a program.
-/
import Mathlib.Algebra.BigOperators.Fin

namespace Cert.SplitSum

/-- The sum over `Fin n`, `n = a + b`, splits at position `a`: the first `a` positions keep their numbers, the
    last `b` are numbered from `a` on. -/
theorem sum_fin_split {M : Type*} [AddCommMonoid M] {a b n : ℕ} (hn : a + b = n) (f : Fin n → M) :
    ∑ k : Fin n, f k
      = ∑ k : Fin a, f ⟨k.val, by have := k.isLt; omega⟩ + ∑ k : Fin b, f ⟨a + k.val, by have := k.isLt; omega⟩ := by
  subst hn
  exact Fin.sum_univ_add f

/-- The same with each half's summand named: whatever the summand is known to be on the first `a` positions
    (`h₁`) and on the last `b` (`h₂`), the whole sum is the two named sums added. -/
theorem sum_fin_split_of_eq {M : Type*} [AddCommMonoid M] {a b n : ℕ} (hn : a + b = n) (f : Fin n → M)
    (g₁ : Fin a → M) (g₂ : Fin b → M)
    (h₁ : ∀ k : Fin a, f ⟨k.val, by have := k.isLt; omega⟩ = g₁ k)
    (h₂ : ∀ k : Fin b, f ⟨a + k.val, by have := k.isLt; omega⟩ = g₂ k) :
    ∑ k : Fin n, f k = ∑ k : Fin a, g₁ k + ∑ k : Fin b, g₂ k := by
  rw [sum_fin_split hn f]
  exact congrArg₂ (· + ·) (Finset.sum_congr rfl fun k _ => h₁ k) (Finset.sum_congr rfl fun k _ => h₂ k)

end Cert.SplitSum
-- ==== Proof.RefIsLstm.lean ====
/-
  The reference's two results are the specification's arrays (LstmSpec.lean), entry by entry, on the extended reals.
  The reference joins the input and the previous hidden state into one row of 2048 entries and contracts it against
  the transposed weights: the sum over the 2048 joined positions splits at 1024 into the input's contraction against
  the weights' first 1024 columns and the hidden state's against the last 1024 — only a regrouping of a finite sum,
  valid at the infinities too. Its sigmoid is spelt `1 / (1 + e^(-x))`, which is what the logistic function is on
  the extended reals, and its tanh is the same tanh.
-/
import proofs.«181645_j53300544143475_2_alg».proof.Proof.Gen.ReferenceIdeal.Read
import proofs.«181645_j53300544143475_2_alg».proof.Proof.LstmSpec
import proofs.«181645_j53300544143475_2_alg».proof.Proof.LibSplitSum
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Cert.Lstm

/-- The joined row at one of its first 1024 positions is the input's entry. -/
theorem joined_left (x0 x1 : FVec Ideal S4096x1024 .f32) (r : Fin 4096) (k : Fin 1024) :
    val_main_v0 (F := Ideal) x0 x1 (ix2 r (colX k)) = x0 (ix2 r k) := by
  unfold val_main_v0
  exact concatenate_pair_apply_left (1 : Fin S4096x2048.rank) x0 x1 _ (ix2 r (colX k)) rfl (ix2 r k)
    (fun b => match b with | ⟨0, _⟩ => rfl | ⟨1, _⟩ => rfl)

/-- The joined row at one of its last 1024 positions is the hidden state's entry, 1024 positions back. -/
theorem joined_right (x0 x1 : FVec Ideal S4096x1024 .f32) (r : Fin 4096) (k : Fin 1024) :
    val_main_v0 (F := Ideal) x0 x1 (ix2 r (colH k)) = x1 (ix2 r k) := by
  unfold val_main_v0
  exact concatenate_pair_apply_right (1 : Fin S4096x2048.rank) x0 x1 _ (ix2 r (colH k)) rfl rfl (ix2 r k)
    (fun b hb => match b, hb with | ⟨0, _⟩, _ => rfl | ⟨1, _⟩, hb => absurd rfl hb)
    (by show k.val + 1024 = 1024 + k.val; omega)

/-- The reference's pre-activations: the contraction of the joined row against the transposed weights, plus the
    bias spread down the rows, is the specification's `gate`. -/
theorem gates_eq (x0 x1 : FVec Ideal S4096x1024 .f32) (x3 : FVec Ideal S4096x2048 .f32) (x4 : FVec Ideal S4096 .f32)
    (r j : Fin 4096) :
    val_main_v5 (F := Ideal) x0 x1 x3 x4 (ix2 r j) = gate x0 x1 x3 x4 r j := by
  rw [val_main_v5_apply, val_main_v2_apply, val_main_v4_apply, val_main_v3_apply]
  unfold gate
  refine congrArg₂ (· + ·) ?_ ?_
  · refine SplitSum.sum_fin_split_of_eq (a := 1024) (b := 1024) rfl _ _ _ (fun k => ?_) (fun k => ?_)
    · rw [val_main_v1_apply]
      have el : lidx_main_v2 (ix2 r j) ⟨k.val, by have := k.isLt; omega⟩ = ix2 r (colX k) :=
        funext fun a => Fin.ext (by match a with | ⟨0, _⟩ => rfl | ⟨1, _⟩ => rfl)
      have er : idx_main_v1 (ridx_main_v2 (ix2 r j) ⟨k.val, by have := k.isLt; omega⟩) = ix2 j (colX k) :=
        funext fun a => Fin.ext (by match a with | ⟨0, _⟩ => rfl | ⟨1, _⟩ => rfl)
      rw [el, er, joined_left]
    · rw [val_main_v1_apply]
      have el : lidx_main_v2 (ix2 r j) ⟨1024 + k.val, by have := k.isLt; omega⟩ = ix2 r (colH k) :=
        funext fun a => Fin.ext (by match a with | ⟨0, _⟩ => rfl | ⟨1, _⟩ => rfl)
      have er : idx_main_v1 (ridx_main_v2 (ix2 r j) ⟨1024 + k.val, by have := k.isLt; omega⟩) = ix2 j (colH k) :=
        funext fun a => Fin.ext (by match a with | ⟨0, _⟩ => rfl | ⟨1, _⟩ => rfl)
      rw [el, er, joined_right]
  · exact congrArg x4 (funext fun a => Fin.ext (by match a with | ⟨0, _⟩ => rfl))

/-- The reference's sigmoid, spelt with the host's negation, exponential, sum with one and quotient of one, is the
    logistic function. -/
theorem sigmoid_eq (g : EReal) :
    FloatOps.hostDivf (F := Ideal) (φ := .f32) (FloatOps.ofBits .f32 0x3F800000#32)
      (FloatOps.addf (FloatOps.ofBits .f32 0x3F800000#32) (FloatOps.hostUnary .exp (FloatOps.hostNegf g)))
      = Ideal.logistic g := by
  rw [Ideal.ofBits_def, Ideal.ofBits_one_f32]
  rfl

/-- The reference's new cell states are the specification's. -/
theorem cell_eq (x0 x1 x2 : FVec Ideal S4096x1024 .f32) (x3 : FVec Ideal S4096x2048 .f32) (x4 : FVec Ideal S4096 .f32) :
    val_main_v31 (F := Ideal) x0 x1 x2 x3 x4 = cellArr x0 x1 x2 x3 x4 := by
  funext i
  obtain ⟨r, q, rfl⟩ : ∃ (r : Fin 4096) (q : Fin 1024), i = ix2 r q := ⟨i 0, i 1, eq_ix2 i⟩
  rw [cellArr_ix2]
  rw [val_main_v31_apply, val_main_v29_apply, val_main_v30_apply, val_main_v12_apply, val_main_v19_apply, val_main_v21_apply,
    val_main_v11_apply, val_main_cst_0_apply, val_main_v10_apply, val_main_v9_apply, val_main_cst_apply, val_main_v8_apply,
    val_main_v7_apply, val_main_v6_apply, val_main_v18_apply, val_main_cst_2_apply, val_main_v17_apply, val_main_v16_apply,
    val_main_cst_1_apply, val_main_v15_apply, val_main_v14_apply, val_main_v13_apply, val_main_v20_apply]
  have e6 : idx_main_v6 (ix2 r q) = ix2 r (colF q) :=
    funext fun a => Fin.ext (by match a with | ⟨0, _⟩ => rfl | ⟨1, _⟩ => rfl)
  have e13 : idx_main_v13 (ix2 r q) = ix2 r (colI q) :=
    funext fun a => Fin.ext (by match a with | ⟨0, _⟩ => rfl | ⟨1, _⟩ => rfl)
  have e20 : idx_main_v20 (ix2 r q) = ix2 r (colG q) :=
    funext fun a => Fin.ext (by match a with | ⟨0, _⟩ => rfl | ⟨1, _⟩ => rfl)
  rw [e6, e13, e20, gates_eq, gates_eq, gates_eq, sigmoid_eq, sigmoid_eq]
  rfl

/-- The reference's new hidden states are the specification's. -/
theorem hidden_eq (x0 x1 x2 : FVec Ideal S4096x1024 .f32) (x3 : FVec Ideal S4096x2048 .f32) (x4 : FVec Ideal S4096 .f32) :
    val_main_v33 (F := Ideal) x0 x1 x2 x3 x4 = hiddenArr x0 x1 x2 x3 x4 := by
  funext i
  obtain ⟨r, q, rfl⟩ : ∃ (r : Fin 4096) (q : Fin 1024), i = ix2 r q := ⟨i 0, i 1, eq_ix2 i⟩
  rw [hiddenArr_ix2]
  rw [val_main_v33_apply, val_main_v28_apply, val_main_v32_apply, val_main_v27_apply, val_main_cst_4_apply, val_main_v26_apply,
    val_main_v25_apply, val_main_cst_3_apply, val_main_v24_apply, val_main_v23_apply, val_main_v22_apply]
  have e22 : idx_main_v22 (ix2 r q) = ix2 r (colO q) :=
    funext fun a => Fin.ext (by match a with | ⟨0, _⟩ => rfl | ⟨1, _⟩ => rfl)
  rw [e22, gates_eq, sigmoid_eq, cell_eq, cellArr_ix2]
  rfl

end Cert.ReferenceIdeal.RefValue

end
-- ==== Proof.lean ====
/-
  One step of an LSTM cell over a batch of 4096 rows, 1024 input features and 1024 hidden units: the kernel against
  its plain reference, equal on the extended reals.

  Both compute, for batch row r and gate column j (four runs of 1024 columns: forget, input, candidate, output),

      gate r j = x(r,·) · W(j, 0‥1023) + h(r,·) · W(j, 1024‥2047) + b(j),
      c'(r,q)  = σ(gate r q) · c(r,q) + σ(gate r (1024+q)) · tanh(gate r (2048+q)),
      h'(r,q)  = σ(gate r (3072+q)) · tanh(c'(r,q)).

  The reference joins x and h into one row of 2048 entries and contracts it against the transposed weights in one
  product; the kernel keeps them apart, contracts each against its half of the weights' columns and adds the two
  products, 256 batch rows per grid point, with the weights first converted to a narrower float format. On the
  extended reals the conversion is the identity, and the one contraction over 2048 positions is the sum of the two
  over 1024 — a regrouping of a finite sum, which needs only that addition is commutative and associative and so
  holds at the infinities: the precondition that the inputs are finite is never used. The reference spells the
  sigmoid as 1 / (1 + e^(-x)) where the kernel applies the logistic function: on the extended reals these are one
  function, with value 0 at -∞ and 1 at +∞; tanh is the same function on both sides.

  LstmSpec.lean states these three formulas once; RefIsLstm.lean shows the reference's two results are them,
  KernelGates.lean / KernelBlock.lean / KernelArrays.lean that the kernel's two result arrays are them (entry by
  entry inside a block, then block by block over the 16 grid points, whose blocks cover the 4096 rows). The three
  frames are the programs' runs with the results forgotten; the kernel's idealization rewrote nothing.
-/
import proofs.«181645_j53300544143475_2_alg».proof.Defs
import proofs.«181645_j53300544143475_2_alg».proof.Proof.Gen.Kernel
import proofs.«181645_j53300544143475_2_alg».proof.Proof.Gen.Kernel.Skeleton
import proofs.«181645_j53300544143475_2_alg».proof.Proof.Gen.Kernel.Launch
import proofs.«181645_j53300544143475_2_alg».proof.Proof.Gen.Kernel.Points
import proofs.«181645_j53300544143475_2_alg».proof.Proof.Gen.Kernel.Frame
import proofs.«181645_j53300544143475_2_alg».proof.Proof.Gen.KernelIdeal
import proofs.«181645_j53300544143475_2_alg».proof.Proof.Gen.KernelIdeal.Skeleton
import proofs.«181645_j53300544143475_2_alg».proof.Proof.Gen.KernelIdeal.Launch
import proofs.«181645_j53300544143475_2_alg».proof.Proof.Gen.KernelIdeal.Points
import proofs.«181645_j53300544143475_2_alg».proof.Proof.Gen.KernelIdeal.Frame
import proofs.«181645_j53300544143475_2_alg».proof.Proof.Gen.ReferenceIdeal
import proofs.«181645_j53300544143475_2_alg».proof.Proof.Gen.Pre_finite_inputs
import proofs.«181645_j53300544143475_2_alg».proof.Proof.Gen.KernelIdeal.Value
import proofs.«181645_j53300544143475_2_alg».proof.Proof.Gen.ReferenceIdeal.Run
import proofs.«181645_j53300544143475_2_alg».proof.Proof.Gen.ReferenceIdeal.Read
import proofs.«181645_j53300544143475_2_alg».proof.Proof.KernelArrays
import proofs.«181645_j53300544143475_2_alg».proof.Proof.RefIsLstm
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation of the kernel: nothing to preserve. -/
theorem preserves : Cert.preserves_Kernel_KernelIdeal := trivial

/-- From memories that agree on the five arguments both programs end with the new hidden states in their first
    result and the new cell states in their second: the kernel's arrays are the specification's of its arguments,
    the reference's are the specification's of its own, and the arguments agree. -/
theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v33_eq, Cert.ReferenceIdeal.RefValue.hidden_eq,
      (hagree c).1, (hagree c).2.1, (hagree c).2.2.1, (hagree c).2.2.2.1, (hagree c).2.2.2.2]
  · rw [Cert.ReferenceIdeal.Read.val_main_v31_eq, Cert.ReferenceIdeal.RefValue.cell_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
